-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x1024 : Shape := ⟨2, ![512, 1024]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x1024 .f32) (main_arg8 : FVec F S512 .f32) (main_arg9 : FVec F S512x1024 .f32) (main_arg10 : FVec F S512 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x512 .f32) (main_arg1 : FVec F S16384x512 .f32) (main_arg2 : FVec F S16384x512 .f32) (main_arg3 : FVec F S512x1024 .f32) (main_arg4 : FVec F S512 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_v13 main_v16
-- ==== Kernel.lean ====
abbrev S16384x512 : Shape := ⟨2, ![16384, 512]⟩
abbrev S512x1024 : Shape := ⟨2, ![512, 1024]⟩
abbrev S512 : Shape := ⟨1, ![512]⟩
abbrev S2048x1024 : Shape := ⟨2, ![2048, 1024]⟩
abbrev S2048 : Shape := ⟨1, ![2048]⟩
abbrev S2048x512 : Shape := ⟨2, ![2048, 512]⟩
abbrev S512x2048 : Shape := ⟨2, ![512, 2048]⟩
abbrev S1x2048 : Shape := ⟨2, ![1, 2048]⟩
abbrev S512x512 : Shape := ⟨2, ![512, 512]⟩

abbrev nBuf : Space → Nat
  | .hbm => 22
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S2048x1024, .f32⟩
  | .hbm, ⟨12, _⟩ => ⟨S2048, .f32⟩
  | .hbm, ⟨13, _⟩ => ⟨S2048x512, .f32⟩
  | .hbm, ⟨14, _⟩ => ⟨S2048x512, .f32⟩
  | .hbm, ⟨15, _⟩ => ⟨S512x2048, .f32⟩
  | .hbm, ⟨16, _⟩ => ⟨S512x2048, .bf16⟩
  | .hbm, ⟨17, _⟩ => ⟨S512x2048, .f32⟩
  | .hbm, ⟨18, _⟩ => ⟨S512x2048, .bf16⟩
  | .hbm, ⟨19, _⟩ => ⟨S1x2048, .f32⟩
  | .hbm, ⟨20, _⟩ => ⟨S16384x512, .f32⟩
  | .hbm, ⟨21, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S512x1024_S512x1024_S512x1024_S512x1024_S2048x1024_d0 : Shape.Concatenates [S512x1024, S512x1024, S512x1024, S512x1024] S2048x1024 0
  concatenates_S512_S512_S512_S512_S2048_d0 : Shape.Concatenates [S512, S512, S512, S512] S2048 0
  slices_S2048x1024_S2048x512_0_0 : S2048x1024.Slices ![0, 0] S2048x512
  slices_S2048x1024_S2048x512_0_512 : S2048x1024.Slices ![0, 512] S2048x512
  transposes_S2048x512_S512x2048_1_0 : S2048x512.Transposes [1, 0] S512x2048
  bitsLt_bf16_f32 : FTy.bits .bf16 < FTy.bits .f32
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S16384x512.size a
  hwx0_7 : ∀ i : grid0.Coords, EltTy.bits .f32 = 32 ∨ (Rect.block (s := S16384x512) S512x512.size (cc0_transform_7 i) (hinb0_7 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x1024 : Shape := ⟨2, ![512, 1024]⟩
abbrev S512 : Shape := ⟨1, ![512]⟩
abbrev S16384x1024 : Shape := ⟨2, ![16384, 1024]⟩
abbrev S2048x1024 : Shape := ⟨2, ![2048, 1024]⟩
abbrev S2048 : Shape := ⟨1, ![2048]⟩
abbrev S1024x2048 : Shape := ⟨2, ![1024, 2048]⟩
abbrev S16384x2048 : Shape := ⟨2, ![16384, 2048]⟩
abbrev S1x2048 : Shape := ⟨2, ![1, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S16384x1024, .f32⟩
  | .hbm, ⟨12, _⟩ => ⟨S2048x1024, .f32⟩
  | .hbm, ⟨13, _⟩ => ⟨S2048, .f32⟩
  | .hbm, ⟨14, _⟩ => ⟨S1024x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  concatenates_S512x1024_S512x1024_S512x1024_S512x1024_S2048x1024_d0 : Shape.Concatenates [S512x1024, S512x1024, S512x1024, S512x1024] S2048x1024 0
  concatenates_S512_S512_S512_S512_S2048_d0 : Shape.Concatenates [S512, S512, S512, S512] S2048 0
  transposes_S2048x1024_S1024x2048_1_0 : S2048x1024.Transposes [1, 0] S1024x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  bcast_S_S16384x512 : S_.BroadcastsInDim S16384x512 (![] : Fin 0 → Fin S16384x512.rank)
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  dot_S16384x1024_S1024x2048_S16384x2048_1_0_0_1_n_n_wf : DotDims.WF S16384x1024 S1024x2048 S16384x2048 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf

class Facts : Prop extends Facts₀ where

variable [Facts]
-- ==== Proof.LstmEntry.lean ====
/-
  The region's entry, for the batch-tiled LSTM cell: the host lines before the one region only BUILD arrays — the four
  gate weight matrices stacked on the row axis, the four biases stacked, the stack's two column halves transposed and
  narrowed, the bias stack as a one-row matrix — and write none of the eleven arguments, so the region finds every
  argument as launched. Stated here: the arrays' contents at region entry (`V`: the host lines folded over the launch
  memory), the program as those lines followed by the region, each argument unchanged at entry, each window's block at a
  grid point read off its array at entry, an input window's staging buffer holding that block at every point (fetched
  there or carried over from the first point), and the frame statement's post read off any run that ends with the
  windows' arrays at the proof data's final contents and every other array at `V`.
-/
import proofs.«159062_j17102559772818_2_alg».proof.Proof.Gen.Kernel.Launch
import proofs.«159062_j17102559772818_2_alg».proof.Proof.Gen.Kernel.Skeleton
import proofs.«159062_j17102559772818_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The arrays at region entry -/

/-- Core `c`'s arrays when the region is entered: the nine host lines applied, in order, to the launch memory. -/
abbrev V (c : Dev nD) (b : Ref sig .tc) : Buf (Elt F) ((c : Thread nD τ).loc b) :=
  StableHlo.after hostOps0 (fun b => m (c, b)) b

/-- None of the nine lines allocates. -/
theorem hostOps0_fresh : (hostOps0 : List (HloOp τ sig (Elt F))).Forall fun op => op.fresh = ∅ := by
  simp only [List.Forall]; repeat' constructor

/-- The program is those lines and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The arguments at region entry: as launched -/

/-- No host line before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## Blocks -/

/-- Window `w`'s block at grid point `t`: the rows (and columns) of its array at entry that the point's index selects. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point — a batch-tiled one because it is fetched at every
    point, a resident one (the two weight slabs, the bias row) because its index never moves after the first fetch —
    for any proof data over the entry arrays whose body leaves the block in place. -/
theorem held0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem held5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a frame run -/

/-- A run that ends with each window's array at the proof data's final contents and every other array at its entry
    contents leaves the eleven arguments as launched: the three batch-tiled inputs are input windows' arrays (never
    written back), the other eight are staged by no window, and entry contents are launch contents (`V_main_arg…`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 1).trans (((dats 0 c).arrAt_in 1 rfl _).trans ((hA c 1).trans (V_main_arg0 m c))),
      ((h c).1 0).trans (((dats 0 c).arrAt_in 0 rfl _).trans ((hA c 0).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

end Cert.Kernel.Lstm

end
-- ==== Proof.LstmBody.lean ====
/-
  One grid point of the LSTM cell: the body reads the point's 512 rows of the previous hidden state, of the input and of
  the previous cell state, the two resident weight slabs and the resident bias row, and overwrites its two output
  buffers whole — the hidden-state buffer with the new hidden state, the cell-state buffer with the new cell state
  (each buffer is also loaded once before it is stored; nothing stored depends on that load). So after the body each
  output buffer holds ONE stored piece over the whole buffer, a function of the six input blocks, and each input
  buffer is as it was.
-/
import proofs.«159062_j17102559772818_2_alg».proof.Proof.LstmEntry

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 512×512 buffer, the whole 512×2048 slab, the whole 1×2048 row: the body's only access rectangles. -/
abbrev rTile : Rect S512x512 := Rect.unit (s := S512x512) ![0, 0] S512x512.size inb_S512x512_S512x512_0_0
abbrev rSlab : Rect S512x2048 := Rect.unit (s := S512x2048) ![0, 0] S512x2048.size inb_S512x2048_S512x2048_0_0
abbrev rRow : Rect S1x2048 := Rect.unit (s := S1x2048) ![0, 0] S1x2048.size inb_S1x2048_S1x2048_0_0

/-- The hidden-state output buffer after the body: the one store, of the new hidden state of the loaded blocks
    (`xh` previous hidden state, `xx` input, `xc` previous cell state, `wh` / `wx` the weight slabs, `bb` the bias row). -/
def hidBuf (xh xx xc : Vec F S512x512 .f32) (wh wx : Vec F S512x2048 .bf16) (bb : Vec F S1x2048 .f32) : Vec F S512x512 .f32 :=
  View.canon [⟨rTile, k0_pay3 (View.ld xh rTile) (View.ld xx rTile) (View.ld wh rSlab) (View.ld wx rSlab) (View.ld bb rRow) (View.ld xc rTile)⟩]

/-- The cell-state output buffer after the body: the one store, of the new cell state. -/
def cellBuf (xh xx xc : Vec F S512x512 .f32) (wh wx : Vec F S512x2048 .bf16) (bb : Vec F S1x2048 .f32) : Vec F S512x512 .f32 :=
  View.canon [⟨rTile, k0_pay2 (View.ld xh rTile) (View.ld xx rTile) (View.ld wh rSlab) (View.ld wx rSlab) (View.ld bb rRow) (View.ld xc rTile)⟩]

/-- A store through the whole-buffer rectangle covers the buffer. -/
theorem tile_cover (p0 : Vec F S512x512 .f32) (y : S512x512.Idx) :
    ∃ pc ∈ ([⟨rTile, p0⟩] : List (View.Piece (Elt F) S512x512 .f32)), y ∈ pc.1.set :=
  View.cover_of_tiled [⟨rTile, p0⟩] S512x512.size (by rfl) y

set_option maxHeartbeats 1000000 in
/-- The body on whole staging buffers — the six inputs' at given contents, the two outputs' at anything — runs to its
    continuation with the inputs' as they were, the hidden-state buffer at `hidBuf` and the cell-state buffer at `cellBuf`. -/
theorem body_triple (c : Dev nD) (E : Set ℕ) (i : grid0.Coords)
    (a1 : Memref sig .tc .vmem S512x512 .f32) (h1 : a1.IsWhole) (a2 : Memref sig .tc .vmem S512x512 .f32) (h2 : a2.IsWhole)
    (a3 : Memref sig .tc .vmem S512x512 .f32) (h3 : a3.IsWhole) (a4 : Memref sig .tc .vmem S512x2048 .bf16) (h4 : a4.IsWhole)
    (a5 : Memref sig .tc .vmem S512x2048 .bf16) (h5 : a5.IsWhole) (a6 : Memref sig .tc .vmem S1x2048 .f32) (h6 : a6.IsWhole)
    (a7 : Memref sig .tc .vmem S512x512 .f32) (h7 : a7.IsWhole) (a8 : Memref sig .tc .vmem S512x512 .f32) (h8 : a8.IsWhole)
    (xh xx xc : Vec F S512x512 .f32) (wh wx : Vec F S512x2048 .bf16) (bb : Vec F S1x2048 .f32) (K : PUnit → sProp 𝕄) :
    iprop(owns (c : Thread nD τ) a1 fullShare xh ∗ owns (c : Thread nD τ) a2 fullShare xx ∗ owns (c : Thread nD τ) a3 fullShare xc
        ∗ owns (c : Thread nD τ) a4 fullShare wh ∗ owns (c : Thread nD τ) a5 fullShare wx ∗ owns (c : Thread nD τ) a6 fullShare bb
        ∗ (∃ d, owns (c : Thread nD τ) a7 fullShare d) ∗ (∃ d, owns (c : Thread nD τ) a8 fullShare d)
        ∗ (iprop(owns (c : Thread nD τ) a1 fullShare xh ∗ owns (c : Thread nD τ) a2 fullShare xx ∗ owns (c : Thread nD τ) a3 fullShare xc
            ∗ owns (c : Thread nD τ) a4 fullShare wh ∗ owns (c : Thread nD τ) a5 fullShare wx ∗ owns (c : Thread nD τ) a6 fullShare bb
            ∗ owns (c : Thread nD τ) a7 fullShare (hidBuf xh xx xc wh wx bb) ∗ owns (c : Thread nD τ) a8 fullShare (cellBuf xh xx xc wh wx bb)) -∗ K ⟨⟩))
      ⊢ wp frame (wpE (defs₀ (F := F)) Variants.none c none) E (cc0__lstm_kernel i a1 h1 a2 h2 a3 h3 a4 h4 a5 h5 a6 h6 a7 h7 a8 h8) K := by
  simp only [cc0__lstm_kernel_eq_skeleton]; unfold cc0__lstm_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (tile_cover _)
  iexists _; isplitr
  swap; · iexact H8
  ipureintro
  exact View.read_writes_eq_canon _ _ _ (tile_cover _)

end Cert.Kernel.Lstm

end
-- ==== Proof.LstmRun.lean ====
/-
  The LSTM cell's region, point by point, and its run. The proof data: every window's array at its region-entry
  contents; after the body at point `t` each of the six input buffers still at its block, the hidden-state buffer at
  the new hidden state of the point's blocks and the cell-state buffer at the new cell state; nothing kept between
  points, nothing owed to another core. The body's triple discharges the obligation at every point, because every
  input buffer holds its block there; the frame run then ends with each window's array at the data's final contents,
  which leaves the eleven arguments as launched.
-/
import proofs.«159062_j17102559772818_2_alg».proof.Proof.LstmBody

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- Window 0 stages the previous hidden state, 1 the input, 2 the previous cell state, 3 and 4 the weight slabs, 5 the
    bias row; 6 is the new hidden state, 7 the new cell state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hidBuf (iblk m c 0 t) (iblk m c 1 t) (iblk m c 2 t) (iblk m c 3 t) (iblk m c 4 t) (iblk m c 5 t)
    | ⟨7, _⟩ => cellBuf (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hidBuf (iblk m c 0 t) (iblk m c 1 t) (iblk m c 2 t) (iblk m c 3 t) (iblk m c 4 t) (iblk m c 5 t) := by dsimp only [dats]
theorem after7 (c : Dev nD) (t : Fin cfg0.N) : (dats m 0 c).after 7 t = cellBuf (iblk m c 0 t) (iblk m c 1 t) (iblk m c 2 t) (iblk m c 3 t) (iblk m c 4 t) (iblk m c 5 t) := by dsimp only [dats]

/-- Each input buffer holds its block when the body is called. -/
theorem held0 (c : Dev nD) (t : Fin cfg0.N) (d) : (dats m 0 c).before 0 t d = iblk m c 0 t := held0_of m (dats m 0 c) (A_eq m c 0) (after0 m c) t d
theorem held1 (c : Dev nD) (t : Fin cfg0.N) (d) : (dats m 0 c).before 1 t d = iblk m c 1 t := held1_of m (dats m 0 c) (A_eq m c 1) (after1 m c) t d
theorem held2 (c : Dev nD) (t : Fin cfg0.N) (d) : (dats m 0 c).before 2 t d = iblk m c 2 t := held2_of m (dats m 0 c) (A_eq m c 2) (after2 m c) t d
theorem held3 (c : Dev nD) (t : Fin cfg0.N) (d) : (dats m 0 c).before 3 t d = iblk m c 3 t := held3_of m (dats m 0 c) (A_eq m c 3) (after3 m c) t d
theorem held4 (c : Dev nD) (t : Fin cfg0.N) (d) : (dats m 0 c).before 4 t d = iblk m c 4 t := held4_of m (dats m 0 c) (A_eq m c 4) (after4 m c) t d
theorem held5 (c : Dev nD) (t : Fin cfg0.N) (d) : (dats m 0 c).before 5 t d = iblk m c 5 t := held5_of m (dats m 0 c) (A_eq m c 5) (after5 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4, held5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The obligation of the pipeline's body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, faulting nowhere, with each window's array at the proof
    data's final contents and every other array as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and leaves its eleven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Lstm

end
-- ==== Proof.LstmEntryIdeal.lean ====
/-
  The region's entry, for the batch-tiled LSTM cell: the host lines before the one region only BUILD arrays — the four
  gate weight matrices stacked on the row axis, the four biases stacked, the stack's two column halves transposed and
  narrowed, the bias stack as a one-row matrix — and write none of the eleven arguments, so the region finds every
  argument as launched. Stated here: the arrays' contents at region entry (`V`: the host lines folded over the launch
  memory), the program as those lines followed by the region, each argument unchanged at entry, each window's block at a
  grid point read off its array at entry, an input window's staging buffer holding that block at every point (fetched
  there or carried over from the first point), and the frame statement's post read off any run that ends with the
  windows' arrays at the proof data's final contents and every other array at `V`.
-/
import proofs.«159062_j17102559772818_2_alg».proof.Proof.Gen.KernelIdeal.Launch
import proofs.«159062_j17102559772818_2_alg».proof.Proof.Gen.KernelIdeal.Skeleton
import proofs.«159062_j17102559772818_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The arrays at region entry -/

/-- Core `c`'s arrays when the region is entered: the nine host lines applied, in order, to the launch memory. -/
abbrev V (c : Dev nD) (b : Ref sig .tc) : Buf (Elt F) ((c : Thread nD τ).loc b) :=
  StableHlo.after hostOps0 (fun b => m (c, b)) b

/-- None of the nine lines allocates. -/
theorem hostOps0_fresh : (hostOps0 : List (HloOp τ sig (Elt F))).Forall fun op => op.fresh = ∅ := by
  simp only [List.Forall]; repeat' constructor

/-- The program is those lines and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The arguments at region entry: as launched -/

/-- No host line before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## Blocks -/

/-- Window `w`'s block at grid point `t`: the rows (and columns) of its array at entry that the point's index selects. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point — a batch-tiled one because it is fetched at every
    point, a resident one (the two weight slabs, the bias row) because its index never moves after the first fetch —
    for any proof data over the entry arrays whose body leaves the block in place. -/
theorem held0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem held5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a frame run -/

/-- A run that ends with each window's array at the proof data's final contents and every other array at its entry
    contents leaves the eleven arguments as launched: the three batch-tiled inputs are input windows' arrays (never
    written back), the other eight are staged by no window, and entry contents are launch contents (`V_main_arg…`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 1).trans (((dats 0 c).arrAt_in 1 rfl _).trans ((hA c 1).trans (V_main_arg0 m c))),
      ((h c).1 0).trans (((dats 0 c).arrAt_in 0 rfl _).trans ((hA c 0).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

end Cert.KernelIdeal.Lstm

end
-- ==== Proof.LstmBodyIdeal.lean ====
/-
  One grid point of the LSTM cell: the body reads the point's 512 rows of the previous hidden state, of the input and of
  the previous cell state, the two resident weight slabs and the resident bias row, and overwrites its two output
  buffers whole — the hidden-state buffer with the new hidden state, the cell-state buffer with the new cell state
  (each buffer is also loaded once before it is stored; nothing stored depends on that load). So after the body each
  output buffer holds ONE stored piece over the whole buffer, a function of the six input blocks, and each input
  buffer is as it was.
-/
import proofs.«159062_j17102559772818_2_alg».proof.Proof.LstmEntryIdeal

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 512×512 buffer, the whole 512×2048 slab, the whole 1×2048 row: the body's only access rectangles. -/
abbrev rTile : Rect S512x512 := Rect.unit (s := S512x512) ![0, 0] S512x512.size inb_S512x512_S512x512_0_0
abbrev rSlab : Rect S512x2048 := Rect.unit (s := S512x2048) ![0, 0] S512x2048.size inb_S512x2048_S512x2048_0_0
abbrev rRow : Rect S1x2048 := Rect.unit (s := S1x2048) ![0, 0] S1x2048.size inb_S1x2048_S1x2048_0_0

/-- The hidden-state output buffer after the body: the one store, of the new hidden state of the loaded blocks
    (`xh` previous hidden state, `xx` input, `xc` previous cell state, `wh` / `wx` the weight slabs, `bb` the bias row). -/
def hidBuf (xh xx xc : Vec F S512x512 .f32) (wh wx : Vec F S512x2048 .bf16) (bb : Vec F S1x2048 .f32) : Vec F S512x512 .f32 :=
  View.canon [⟨rTile, k0_pay3 (View.ld xh rTile) (View.ld xx rTile) (View.ld wh rSlab) (View.ld wx rSlab) (View.ld bb rRow) (View.ld xc rTile)⟩]

/-- The cell-state output buffer after the body: the one store, of the new cell state. -/
def cellBuf (xh xx xc : Vec F S512x512 .f32) (wh wx : Vec F S512x2048 .bf16) (bb : Vec F S1x2048 .f32) : Vec F S512x512 .f32 :=
  View.canon [⟨rTile, k0_pay2 (View.ld xh rTile) (View.ld xx rTile) (View.ld wh rSlab) (View.ld wx rSlab) (View.ld bb rRow) (View.ld xc rTile)⟩]

/-- A store through the whole-buffer rectangle covers the buffer. -/
theorem tile_cover (p0 : Vec F S512x512 .f32) (y : S512x512.Idx) :
    ∃ pc ∈ ([⟨rTile, p0⟩] : List (View.Piece (Elt F) S512x512 .f32)), y ∈ pc.1.set :=
  View.cover_of_tiled [⟨rTile, p0⟩] S512x512.size (by rfl) y

set_option maxHeartbeats 1000000 in
/-- The body on whole staging buffers — the six inputs' at given contents, the two outputs' at anything — runs to its
    continuation with the inputs' as they were, the hidden-state buffer at `hidBuf` and the cell-state buffer at `cellBuf`. -/
theorem body_triple (c : Dev nD) (E : Set ℕ) (i : grid0.Coords)
    (a1 : Memref sig .tc .vmem S512x512 .f32) (h1 : a1.IsWhole) (a2 : Memref sig .tc .vmem S512x512 .f32) (h2 : a2.IsWhole)
    (a3 : Memref sig .tc .vmem S512x512 .f32) (h3 : a3.IsWhole) (a4 : Memref sig .tc .vmem S512x2048 .bf16) (h4 : a4.IsWhole)
    (a5 : Memref sig .tc .vmem S512x2048 .bf16) (h5 : a5.IsWhole) (a6 : Memref sig .tc .vmem S1x2048 .f32) (h6 : a6.IsWhole)
    (a7 : Memref sig .tc .vmem S512x512 .f32) (h7 : a7.IsWhole) (a8 : Memref sig .tc .vmem S512x512 .f32) (h8 : a8.IsWhole)
    (xh xx xc : Vec F S512x512 .f32) (wh wx : Vec F S512x2048 .bf16) (bb : Vec F S1x2048 .f32) (K : PUnit → sProp 𝕄) :
    iprop(owns (c : Thread nD τ) a1 fullShare xh ∗ owns (c : Thread nD τ) a2 fullShare xx ∗ owns (c : Thread nD τ) a3 fullShare xc
        ∗ owns (c : Thread nD τ) a4 fullShare wh ∗ owns (c : Thread nD τ) a5 fullShare wx ∗ owns (c : Thread nD τ) a6 fullShare bb
        ∗ (∃ d, owns (c : Thread nD τ) a7 fullShare d) ∗ (∃ d, owns (c : Thread nD τ) a8 fullShare d)
        ∗ (iprop(owns (c : Thread nD τ) a1 fullShare xh ∗ owns (c : Thread nD τ) a2 fullShare xx ∗ owns (c : Thread nD τ) a3 fullShare xc
            ∗ owns (c : Thread nD τ) a4 fullShare wh ∗ owns (c : Thread nD τ) a5 fullShare wx ∗ owns (c : Thread nD τ) a6 fullShare bb
            ∗ owns (c : Thread nD τ) a7 fullShare (hidBuf xh xx xc wh wx bb) ∗ owns (c : Thread nD τ) a8 fullShare (cellBuf xh xx xc wh wx bb)) -∗ K ⟨⟩))
      ⊢ wp frame (wpE (defs₀ (F := F)) Variants.none c none) E (cc0__lstm_kernel i a1 h1 a2 h2 a3 h3 a4 h4 a5 h5 a6 h6 a7 h7 a8 h8) K := by
  simp only [cc0__lstm_kernel_eq_skeleton]; unfold cc0__lstm_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (tile_cover _)
  iexists _; isplitr
  swap; · iexact H8
  ipureintro
  exact View.read_writes_eq_canon _ _ _ (tile_cover _)

end Cert.KernelIdeal.Lstm

end
-- ==== Proof.LstmRunIdeal.lean ====
/-
  The LSTM cell's region, point by point, and its run. The proof data: every window's array at its region-entry
  contents; after the body at point `t` each of the six input buffers still at its block, the hidden-state buffer at
  the new hidden state of the point's blocks and the cell-state buffer at the new cell state; nothing kept between
  points, nothing owed to another core. The body's triple discharges the obligation at every point, because every
  input buffer holds its block there; the frame run then ends with each window's array at the data's final contents,
  which leaves the eleven arguments as launched.
-/
import proofs.«159062_j17102559772818_2_alg».proof.Proof.LstmBodyIdeal

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- Window 0 stages the previous hidden state, 1 the input, 2 the previous cell state, 3 and 4 the weight slabs, 5 the
    bias row; 6 is the new hidden state, 7 the new cell state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hidBuf (iblk m c 0 t) (iblk m c 1 t) (iblk m c 2 t) (iblk m c 3 t) (iblk m c 4 t) (iblk m c 5 t)
    | ⟨7, _⟩ => cellBuf (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hidBuf (iblk m c 0 t) (iblk m c 1 t) (iblk m c 2 t) (iblk m c 3 t) (iblk m c 4 t) (iblk m c 5 t) := by dsimp only [dats]
theorem after7 (c : Dev nD) (t : Fin cfg0.N) : (dats m 0 c).after 7 t = cellBuf (iblk m c 0 t) (iblk m c 1 t) (iblk m c 2 t) (iblk m c 3 t) (iblk m c 4 t) (iblk m c 5 t) := by dsimp only [dats]

/-- Each input buffer holds its block when the body is called. -/
theorem held0 (c : Dev nD) (t : Fin cfg0.N) (d) : (dats m 0 c).before 0 t d = iblk m c 0 t := held0_of m (dats m 0 c) (A_eq m c 0) (after0 m c) t d
theorem held1 (c : Dev nD) (t : Fin cfg0.N) (d) : (dats m 0 c).before 1 t d = iblk m c 1 t := held1_of m (dats m 0 c) (A_eq m c 1) (after1 m c) t d
theorem held2 (c : Dev nD) (t : Fin cfg0.N) (d) : (dats m 0 c).before 2 t d = iblk m c 2 t := held2_of m (dats m 0 c) (A_eq m c 2) (after2 m c) t d
theorem held3 (c : Dev nD) (t : Fin cfg0.N) (d) : (dats m 0 c).before 3 t d = iblk m c 3 t := held3_of m (dats m 0 c) (A_eq m c 3) (after3 m c) t d
theorem held4 (c : Dev nD) (t : Fin cfg0.N) (d) : (dats m 0 c).before 4 t d = iblk m c 4 t := held4_of m (dats m 0 c) (A_eq m c 4) (after4 m c) t d
theorem held5 (c : Dev nD) (t : Fin cfg0.N) (d) : (dats m 0 c).before 5 t d = iblk m c 5 t := held5_of m (dats m 0 c) (A_eq m c 5) (after5 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4, held5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The obligation of the pipeline's body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, faulting nowhere, with each window's array at the proof
    data's final contents and every other array as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and leaves its eleven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Lstm

end
-- ==== Proof.LstmSpec.lean ====
/-
  The LSTM cell, as one function of the argument arrays, index by index, on the extended reals.

  For batch row `r` and gate column `n` (of the 2048 = 4·512 columns: input, forget, output and candidate gates, in
  that order) the gate's pre-activation is an affine map of the stacked row `[h_prev(r, ·), x(r, ·)]`:
      pre r n = Σ_{k<512} h_prev(r,k)·W(n,k) + Σ_{k<512} x(r,k)·W(n,512+k) + b(n),
  `W` the four gates' weight matrices stacked on the row axis and `b` the four biases stacked. With
  σ the logistic function,
      c(r,q) = σ(pre r (512+q)) · c_prev(r,q) + σ(pre r q) · tanh(pre r (1536+q)),
      h(r,q) = tanh(c(r,q)) · σ(pre r (1024+q)).
  A program that contracts the stacked row of length 1024 in ONE sum and a program that contracts its two halves
  separately and adds agree: a finite sum over `Fin 1024` is the sum over the first 512 positions plus the sum over the
  last 512, in any commutative monoid — no finiteness of the entries is used.
-/
import Idealize.ShloMosaic.PureOps.Ideal
import Idealize.ShloMosaic.PureOps.Ideal.Laws
import Idealize.ShloMosaic.Lib.ValueIdx
import Mathlib.Algebra.BigOperators.Fin

noncomputable section

namespace Cert.LstmCell

open Idealize.ShloMosaic Idealize.ShloMosaic.ValueIdx

/-- The batch-sized arrays: 16384 rows of 512. -/
abbrev SRows : Shape := ⟨2, ![16384, 512]⟩
/-- The stacked weights: 2048 gate columns (as rows) of the 1024 stacked inputs. -/
abbrev SW : Shape := ⟨2, ![2048, 1024]⟩
/-- The stacked biases. -/
abbrev SBias : Shape := ⟨1, ![2048]⟩

/-- Column `k` of the hidden-state half of the stacked row. -/
abbrev lo (k : Fin 512) : Fin 1024 := ⟨k.val, by omega⟩
/-- Column `k` of the input half of the stacked row. -/
abbrev hi (k : Fin 512) : Fin 1024 := ⟨512 + k.val, by omega⟩
/-- Column `q` of the input gate, of the forget gate, of the output gate and of the candidate gate among the 2048 gate
    columns: the four consecutive groups of 512. -/
abbrev colI (q : Fin 512) : Fin 2048 := ⟨q.val, by omega⟩
abbrev colF (q : Fin 512) : Fin 2048 := ⟨512 + q.val, by omega⟩
abbrev colO (q : Fin 512) : Fin 2048 := ⟨1024 + q.val, by omega⟩
abbrev colG (q : Fin 512) : Fin 2048 := ⟨1536 + q.val, by omega⟩

/-- A gate's pre-activation from one row of each operand: the hidden half's contraction, the input half's, the bias. -/
def preOf (hrow xrow : Fin 512 → EReal) (wlo whi : Fin 512 → EReal) (bias : EReal) : EReal :=
  (∑ k : Fin 512, hrow k * wlo k + ∑ k : Fin 512, xrow k * whi k) + bias

/-- The new cell state from the input, forget and candidate pre-activations and the previous cell state. -/
def cellOf (gi gf gg cp : EReal) : EReal := Ideal.logistic gf * cp + Ideal.logistic gi * Ideal.tanh gg

/-- The new hidden state from the new cell state and the output gate's pre-activation. -/
def hidOf (cnew go : EReal) : EReal := Ideal.tanh cnew * Ideal.logistic go

/-- The pre-activation of gate column `n` at batch row `r`. -/
def pre (x h : SRows.Idx → EReal) (W : SW.Idx → EReal) (b : SBias.Idx → EReal) (r : Fin 16384) (n : Fin 2048) : EReal :=
  preOf (fun k => h (ix2 r k)) (fun k => x (ix2 r k)) (fun k => W (ix2 n (lo k))) (fun k => W (ix2 n (hi k))) (b (ix1 n))

/-- The new cell state, as an array. -/
def cellOut (x h cp : SRows.Idx → EReal) (W : SW.Idx → EReal) (b : SBias.Idx → EReal) : SRows.Idx → EReal := fun i =>
  cellOf (pre x h W b (i 0) (colI (i 1))) (pre x h W b (i 0) (colF (i 1))) (pre x h W b (i 0) (colG (i 1))) (cp i)

/-- The new hidden state, as an array. -/
def hidOut (x h cp : SRows.Idx → EReal) (W : SW.Idx → EReal) (b : SBias.Idx → EReal) : SRows.Idx → EReal := fun i =>
  hidOf (cellOut x h cp W b i) (pre x h W b (i 0) (colO (i 1)))

/-- A sum over the 1024 stacked positions is the sum over the hidden half plus the sum over the input half. -/
theorem sum_stacked {M : Type*} [AddCommMonoid M] (f : Fin 1024 → M) :
    ∑ j : Fin 1024, f j = ∑ k : Fin 512, f (lo k) + ∑ k : Fin 512, f (hi k) := by
  have h := Fin.sum_univ_add (a := 512) (b := 512) (f := f)
  rw [h]
  rfl

/-- The single-precision word of `1.0` denotes the real one. -/
theorem ofBits_one : Ideal.ofBits .f32 0x3F800000#32 = 1 := by
  simp [Ideal.ofBits, Ideal.ieee, -EReal.coe_mul]; norm_num

/-- The logistic function spelled as a quotient with the literal `1.0` in both places is the logistic function. -/
theorem logistic_spelled (x : EReal) :
    Ideal.div (Ideal.ofBits .f32 0x3F800000#32) (Ideal.ofBits .f32 0x3F800000#32 + Ideal.exp (-x)) = Ideal.logistic x := by
  rw [ofBits_one]; rfl

end Cert.LstmCell

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LstmPayload.lean ====
/-
  The LSTM cell's body arithmetic at one entry of the 512-row block. With `v0` the block of the previous hidden state,
  `v2` of the input, `v23` of the previous cell state, `v4` / `v7` the hidden-half and input-half weight slabs (one row
  per stacked position, one column per gate column) and `v11` the bias row:
  the gate matrix at (p, n) is Σ_k v0(p,k)·v4(k,n) + Σ_k v2(p,k)·v7(k,n) + v11(0,n) — two matrix products into zero
  accumulators, added, plus the bias row broadcast down the rows (narrowing the operands to half precision is the
  identity on the extended reals) —; the four 512-column slices of it are the input, forget, output and candidate gates'
  pre-activations; the stored cell state is σ(f)·c_prev + σ(i)·tanh(g) and the stored hidden state tanh(c)·σ(o).
-/
import proofs.«159062_j17102559772818_2_alg».proof.Proof.Gen.KernelIdeal.Skeleton
import proofs.«159062_j17102559772818_2_alg».proof.Proof.LstmSpec
import proofs.«159062_j17102559772818_2_alg».proof.Proof.LibDot
import Idealize.ShloMosaic.Lib.ValueIdx
import Idealize.ShloMosaic.Lib.Pipeline.Value
import Idealize.ShloMosaic.PureOps.Ideal.Laws

noncomputable section

namespace Cert.KernelIdeal.LstmPayload

open Cert.KernelIdeal Cert.KernelIdeal.Gen Idealize.ShloMosaic Idealize.ShloMosaic.ValueIdx Cert.LstmCell

/-- The body's one matrix-product shape: [512,512] by [512,2048], the left operand's columns against the right's rows. -/
abbrev dotK : DotDims S512x512 S512x2048 S512x2048 := dot_S512x512_S512x2048_S512x2048_1_0_0_1_n_n

theorem dotK_l0 (j : S512x2048.Idx) (q : dotK.contr.Idx) : (dotK.lhsIdx j q 0).val = (j 0).val := by
  unfold DotDims.lhsIdx
  rw [dif_neg (show ¬(0 : Fin S512x512.rank) ∈ dotK.lhsBatch by decide), dif_pos (show (0 : Fin S512x512.rank) ∈ dotK.lhsNonContracting by decide)]
  rfl
theorem dotK_l1 (j : S512x2048.Idx) (q : dotK.contr.Idx) : (dotK.lhsIdx j q 1).val = (q ⟨0, by decide⟩).val :=
  dotK.lhsIdx_val_of_single rfl j q
theorem dotK_r0 (j : S512x2048.Idx) (q : dotK.contr.Idx) : (dotK.rhsIdx j q 0).val = (q ⟨0, by decide⟩).val :=
  dotK.rhsIdx_val_of_single rfl j q
theorem dotK_r1 (j : S512x2048.Idx) (q : dotK.contr.Idx) : (dotK.rhsIdx j q 1).val = (j 1).val := by
  unfold DotDims.rhsIdx
  rw [dif_neg (show ¬(1 : Fin S512x2048.rank) ∈ dotK.rhsBatch by decide), dif_pos (show (1 : Fin S512x2048.rank) ∈ dotK.rhsNonContracting by decide)]
  rfl

/-- A product of the body's shape into the zero accumulator, at entry (p, n): the textbook sum. -/
theorem dotK_apply (l : FVec Ideal S512x512 .bf16) (r : FVec Ideal S512x2048 .bf16) (p : Fin 512) (n : Fin 2048) :
    matmul dotK none l r (constant (F := Ideal) S512x2048 .f32 0x00000000#32) (ix2 p n) = ∑ k : Fin 512, l (ix2 p k) * r (ix2 k n) :=
  Cert.LibDot.matmul_zero_apply dotK rfl rfl dotK_l0 dotK_l1 dotK_r0 dotK_r1 none l r p n

/-- The bias row broadcast down the 512 rows, at entry (p, n): the row's entry n. -/
theorem bias_apply (b : FVec Ideal S1x2048 .f32) (p : Fin 512) (n : Fin 2048) :
    broadcastTo S512x2048 b broadcasts_S1x2048_S512x2048 (ix2 p n) = b (ix2 (0 : Fin 1) n) :=
  broadcastTo_apply b broadcasts_S1x2048_S512x2048 (ix2 p n) (ix2 (0 : Fin 1) n) (fun a => by
    match a with
    | ⟨0, _⟩ => rfl
    | ⟨1, _⟩ => rfl)

/-- The gate matrix at (p, n). -/
theorem gates_apply (v0 v2 : Vec Ideal S512x512 .f32) (v4 v7 : Vec Ideal S512x2048 .bf16) (v11 : Vec Ideal S1x2048 .f32)
    (p : Fin 512) (n : Fin 2048) :
    k0_pay1 v0 v2 v4 v7 v11 (ix2 p n)
      = preOf (fun k => v0 (ix2 p k)) (fun k => v2 (ix2 p k)) (fun k => v4 (ix2 k n)) (fun k => v7 (ix2 k n)) (v11 (ix2 (0 : Fin 1) n)) := by
  unfold k0_pay1 preOf
  rw [shapeCast_self v4, shapeCast_self v7, shapeCast_self v11]
  refine (addf_apply _ _ _).trans ?_
  refine congrArg₂ (· + ·) ((addf_apply _ _ _).trans (congrArg₂ (· + ·) (dotK_apply _ _ p n) (dotK_apply _ _ p n))) (bias_apply v11 p n)

/-- A 512-column slice of the gate matrix starting at column `o`, at (p, q). -/
theorem sliceI_apply (g : FVec Ideal S512x2048 .f32) (p q : Fin 512) :
    extractStridedSlice S512x512 ![0, 0] g slices_S512x2048_o0_0_S512x512 (ix2 p q) = g (ix2 p (colI q)) :=
  extractStridedSlice_apply ![0, 0] g slices_S512x2048_o0_0_S512x512 (ix2 p q) (ix2 p (colI q)) (fun a => by
    match a with
    | ⟨0, _⟩ => show p.val = 0 + p.val; omega
    | ⟨1, _⟩ => show q.val = 0 + q.val; omega)
theorem sliceF_apply (g : FVec Ideal S512x2048 .f32) (p q : Fin 512) :
    extractStridedSlice S512x512 ![0, 512] g slices_S512x2048_o0_512_S512x512 (ix2 p q) = g (ix2 p (colF q)) :=
  extractStridedSlice_apply ![0, 512] g slices_S512x2048_o0_512_S512x512 (ix2 p q) (ix2 p (colF q)) (fun a => by
    match a with
    | ⟨0, _⟩ => show p.val = 0 + p.val; omega
    | ⟨1, _⟩ => rfl)
theorem sliceO_apply (g : FVec Ideal S512x2048 .f32) (p q : Fin 512) :
    extractStridedSlice S512x512 ![0, 1024] g slices_S512x2048_o0_1024_S512x512 (ix2 p q) = g (ix2 p (colO q)) :=
  extractStridedSlice_apply ![0, 1024] g slices_S512x2048_o0_1024_S512x512 (ix2 p q) (ix2 p (colO q)) (fun a => by
    match a with
    | ⟨0, _⟩ => show p.val = 0 + p.val; omega
    | ⟨1, _⟩ => rfl)
theorem sliceG_apply (g : FVec Ideal S512x2048 .f32) (p q : Fin 512) :
    extractStridedSlice S512x512 ![0, 1536] g slices_S512x2048_o0_1536_S512x512 (ix2 p q) = g (ix2 p (colG q)) :=
  extractStridedSlice_apply ![0, 1536] g slices_S512x2048_o0_1536_S512x512 (ix2 p q) (ix2 p (colG q)) (fun a => by
    match a with
    | ⟨0, _⟩ => show p.val = 0 + p.val; omega
    | ⟨1, _⟩ => rfl)

/-- The stored cell state at (p, q), from the block's gate pre-activations. -/
theorem cell_apply (v0 v2 : Vec Ideal S512x512 .f32) (v4 v7 : Vec Ideal S512x2048 .bf16) (v11 : Vec Ideal S1x2048 .f32)
    (v23 : Vec Ideal S512x512 .f32) (p q : Fin 512) :
    k0_pay2 v0 v2 v4 v7 v11 v23 (ix2 p q)
      = cellOf (k0_pay1 v0 v2 v4 v7 v11 (ix2 p (colI q))) (k0_pay1 v0 v2 v4 v7 v11 (ix2 p (colF q)))
          (k0_pay1 v0 v2 v4 v7 v11 (ix2 p (colG q))) (v23 (ix2 p q)) := by
  unfold k0_pay2 cellOf
  refine (addf_apply _ _ _).trans ?_
  refine congrArg₂ (· + ·) ((mulf_apply _ _ _).trans (congrArg₂ (· * ·) (congrArg Ideal.logistic (sliceF_apply _ p q)) rfl))
    ((mulf_apply _ _ _).trans (congrArg₂ (· * ·) (congrArg Ideal.logistic (sliceI_apply _ p q)) (congrArg Ideal.tanh (sliceG_apply _ p q))))

/-- The stored hidden state at (p, q), from the stored cell state and the output gate's pre-activation. -/
theorem hid_apply (v0 v2 : Vec Ideal S512x512 .f32) (v4 v7 : Vec Ideal S512x2048 .bf16) (v11 : Vec Ideal S1x2048 .f32)
    (v23 : Vec Ideal S512x512 .f32) (p q : Fin 512) :
    k0_pay3 v0 v2 v4 v7 v11 v23 (ix2 p q)
      = hidOf (k0_pay2 v0 v2 v4 v7 v11 v23 (ix2 p q)) (k0_pay1 v0 v2 v4 v7 v11 (ix2 p (colO q))) := by
  unfold k0_pay3 hidOf
  refine (mulf_apply _ _ _).trans ?_
  exact congrArg₂ (· * ·) rfl (congrArg Ideal.logistic (sliceO_apply _ p q))

/-! ## The block inside the arrays

  When the point's three batch blocks are rows `r0 .. r0+511` of the batch arrays, the slabs' entry (k, n) is the weight
  stack's (n, k) and (n, 512+k), and the bias row is the bias stack, the block's gate matrix at (p, n) is `pre` at row
  `r0+p`, and the two stored values are the arrays `cellOut` and `hidOut` at (r0+p, q). -/

section Block
variable (v0 v2 v23 : Vec Ideal S512x512 .f32) (v4 v7 : Vec Ideal S512x2048 .bf16) (v11 : Vec Ideal S1x2048 .f32)
  (x h cp : SRows.Idx → EReal) (W : SW.Idx → EReal) (b : SBias.Idx → EReal) (rows : Fin 512 → Fin 16384)
  (e0 : ∀ p k, v0 (ix2 p k) = h (ix2 (rows p) k)) (e2 : ∀ p k, v2 (ix2 p k) = x (ix2 (rows p) k))
  (e23 : ∀ p q, v23 (ix2 p q) = cp (ix2 (rows p) q))
  (e4 : ∀ k n, v4 (ix2 k n) = W (ix2 n (lo k))) (e7 : ∀ k n, v7 (ix2 k n) = W (ix2 n (hi k)))
  (e11 : ∀ n, v11 (ix2 (0 : Fin 1) n) = b (ix1 n))

include e0 e2 e4 e7 e11 in
theorem gates_block (p : Fin 512) (n : Fin 2048) : k0_pay1 v0 v2 v4 v7 v11 (ix2 p n) = pre x h W b (rows p) n := by
  rw [gates_apply]
  unfold pre
  simp only [e0, e2, e4, e7, e11]

include e0 e2 e23 e4 e7 e11 in
theorem cell_block (p q : Fin 512) : k0_pay2 v0 v2 v4 v7 v11 v23 (ix2 p q) = cellOut x h cp W b (ix2 (rows p) q) := by
  rw [cell_apply, gates_block v0 v2 v4 v7 v11 x h W b rows e0 e2 e4 e7 e11, gates_block v0 v2 v4 v7 v11 x h W b rows e0 e2 e4 e7 e11,
    gates_block v0 v2 v4 v7 v11 x h W b rows e0 e2 e4 e7 e11, e23]
  rfl

include e0 e2 e23 e4 e7 e11 in
theorem hid_block (p q : Fin 512) : k0_pay3 v0 v2 v4 v7 v11 v23 (ix2 p q) = hidOut x h cp W b (ix2 (rows p) q) := by
  rw [hid_apply, cell_block v0 v2 v23 v4 v7 v11 x h cp W b rows e0 e2 e23 e4 e7 e11,
    gates_block v0 v2 v4 v7 v11 x h W b rows e0 e2 e4 e7 e11]
  rfl

end Block

end Cert.KernelIdeal.LstmPayload

end
-- ==== Proof.LstmValue.lean ====
/-
  The LSTM cell's two result arrays after the kernel's run, as functions of the launch arrays.

  At region entry the hidden-half slab holds, at (k, n), the stacked weights' entry (n, k): the host lines slice the
  stack's first 512 columns, transpose, and narrow (the identity on the extended reals); the input-half slab holds
  (n, 512+k) likewise; the bias row holds the stacked biases. Grid point t stages rows 512·t … 512·t+511 of the three
  batch arrays and the whole of the three resident arrays, so what it writes back is the block of `hidOut` / `cellOut`
  at those rows; the 32 row tiles cover the 16384 rows, so each result array ends at `hidOut` / `cellOut` of the
  arguments, the stacked weights and the stacked biases.
-/
import proofs.«159062_j17102559772818_2_alg».proof.Proof.LstmRunIdeal
import proofs.«159062_j17102559772818_2_alg».proof.Proof.LstmPayload
import Idealize.ShloMosaic.Lib.Pipeline.Value
import Idealize.ShloMosaic.Lib.StableHlo.Run

set_option maxRecDepth 16384

noncomputable section

namespace Cert.KernelIdeal.LstmValue

open Cert.KernelIdeal Cert.KernelIdeal.Gen Cert.KernelIdeal.Lstm Cert.KernelIdeal.LstmPayload Cert.LstmCell
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The stacked parameters -/

/-- The four gates' weight matrices stacked on the row axis, in the order input, forget, output, candidate. -/
def Wst (c : Dev nD) : S2048x1024.Idx → EReal :=
  concatenate S2048x1024 0 [⟨S512x1024, m ((c : Thread nD τ).loc main_arg3)⟩, ⟨S512x1024, m ((c : Thread nD τ).loc main_arg5)⟩, ⟨S512x1024, m ((c : Thread nD τ).loc main_arg9)⟩, ⟨S512x1024, m ((c : Thread nD τ).loc main_arg7)⟩]
    concatenates_S512x1024_S512x1024_S512x1024_S512x1024_S2048x1024_d0

/-- The four biases stacked in the same order. -/
def bst (c : Dev nD) : S2048.Idx → EReal :=
  concatenate S2048 0 [⟨S512, m ((c : Thread nD τ).loc main_arg4)⟩, ⟨S512, m ((c : Thread nD τ).loc main_arg6)⟩, ⟨S512, m ((c : Thread nD τ).loc main_arg10)⟩, ⟨S512, m ((c : Thread nD τ).loc main_arg8)⟩]
    concatenates_S512_S512_S512_S512_S2048_d0

/-! ## The resident arrays at region entry -/

theorem V_wh (c : Dev nD) : (V m c main_v5 : S512x2048.Idx → EReal)
    = truncf (F := Ideal) .bf16 (transpose S512x2048 [1, 0] (extractStridedSlice S2048x512 ![0, 0] (Wst m c) slices_S2048x1024_S2048x512_0_0)
        transposes_S2048x512_S512x2048_1_0) bitsLt_bf16_f32 := by
  dsimp only [V, hostOps0]; after_results; rfl

theorem V_wx (c : Dev nD) : (V m c main_v7 : S512x2048.Idx → EReal)
    = truncf (F := Ideal) .bf16 (transpose S512x2048 [1, 0] (extractStridedSlice S2048x512 ![0, 512] (Wst m c) slices_S2048x1024_S2048x512_0_512)
        transposes_S2048x512_S512x2048_1_0) bitsLt_bf16_f32 := by
  dsimp only [V, hostOps0]; after_results; rfl

theorem V_bias (c : Dev nD) : (V m c main_v8 : S1x2048.Idx → EReal) = shapeCast S1x2048 (bst m c) shapeCasts_S2048_S1x2048 := by
  dsimp only [V, hostOps0]; after_results; rfl

/-- The hidden-half slab at (k, n): the weight stack at (n, k). -/
theorem wh_apply (c : Dev nD) (k : Fin 512) (n : Fin 2048) : (V m c main_v5 : S512x2048.Idx → EReal) (ix2 k n) = Wst m c (ix2 n (lo k)) := by
  rw [V_wh]
  show transpose S512x2048 [1, 0] (extractStridedSlice S2048x512 ![0, 0] (Wst m c) slices_S2048x1024_S2048x512_0_0)
      transposes_S2048x512_S512x2048_1_0 (ix2 k n) = _
  refine (transpose_apply [1, 0] _ transposes_S2048x512_S512x2048_1_0 (ix2 k n) (ix2 n k) (fun b => by
    match b with
    | ⟨0, _⟩ => rfl
    | ⟨1, _⟩ => rfl)).trans ?_
  exact extractStridedSlice_apply ![0, 0] (Wst m c) slices_S2048x1024_S2048x512_0_0 (ix2 n k) (ix2 n (lo k)) (fun a => by
    match a with
    | ⟨0, _⟩ => show n.val = 0 + n.val; omega
    | ⟨1, _⟩ => show k.val = 0 + k.val; omega)

/-- The input-half slab at (k, n): the weight stack at (n, 512+k). -/
theorem wx_apply (c : Dev nD) (k : Fin 512) (n : Fin 2048) : (V m c main_v7 : S512x2048.Idx → EReal) (ix2 k n) = Wst m c (ix2 n (hi k)) := by
  rw [V_wx]
  show transpose S512x2048 [1, 0] (extractStridedSlice S2048x512 ![0, 512] (Wst m c) slices_S2048x1024_S2048x512_0_512)
      transposes_S2048x512_S512x2048_1_0 (ix2 k n) = _
  refine (transpose_apply [1, 0] _ transposes_S2048x512_S512x2048_1_0 (ix2 k n) (ix2 n k) (fun b => by
    match b with
    | ⟨0, _⟩ => rfl
    | ⟨1, _⟩ => rfl)).trans ?_
  exact extractStridedSlice_apply ![0, 512] (Wst m c) slices_S2048x1024_S2048x512_0_512 (ix2 n k) (ix2 n (hi k)) (fun a => by
    match a with
    | ⟨0, _⟩ => show n.val = 0 + n.val; omega
    | ⟨1, _⟩ => rfl)

/-- The bias row at (0, n): the bias stack at n. -/
theorem bias_row_apply (c : Dev nD) (n : Fin 2048) : (V m c main_v8 : S1x2048.Idx → EReal) (ix2 (0 : Fin 1) n) = bst m c (ix1 n) := by
  rw [V_bias]
  exact shapeCast_apply (bst m c) shapeCasts_S2048_S1x2048 (ix2 (0 : Fin 1) n) (ix1 n) (by
    rw [Shape.rowMajor_val_one, Shape.rowMajor_val_two]
    show n.val = 0 * 2048 + n.val; omega)

/-! ## Blocks inside their arrays -/

/-- The index maps over the 32 grid points: a batch window's block index is (t, 0), a resident window's (0, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem lt_N (t : Fin cfg0.N) : t.val < 32 := by
  have h := t.isLt; have hN : cfg0.N = 32 := N_0; omega

/-- Row p of grid point t's tile, as a row of the batch arrays. -/
def rowOf (t : Fin cfg0.N) (p : Fin 512) : Fin 16384 := ⟨512 * t.val + p.val, by have := lt_N t; omega⟩

theorem blk_h (c : Dev nD) (t : Fin cfg0.N) (p k : Fin 512) : iblk m c 0 t (ix2 p k) = m ((c : Thread nD τ).loc main_arg1) (ix2 (rowOf t p) k) := by
  unfold iblk
  rw [View.read_apply]
  show V m c main_arg1 (((cfg0.win 0).blk t).view.emb (ix2 p k)) = _
  rw [V_main_arg1]
  refine congrArg _ (funext fun a => Fin.ext ?_)
  match a with
  | ⟨0, _⟩ => show win0_0.index t (0 : Fin 2) * 512 + 1 * p.val = 512 * t.val + p.val; rw [(idx_rows t).1]; omega
  | ⟨1, _⟩ => show win0_0.index t (1 : Fin 2) * 512 + 1 * k.val = k.val; rw [(idx_rows t).2.1]; omega

theorem blk_x (c : Dev nD) (t : Fin cfg0.N) (p k : Fin 512) : iblk m c 1 t (ix2 p k) = m ((c : Thread nD τ).loc main_arg0) (ix2 (rowOf t p) k) := by
  unfold iblk
  rw [View.read_apply]
  show V m c main_arg0 (((cfg0.win 1).blk t).view.emb (ix2 p k)) = _
  rw [V_main_arg0]
  refine congrArg _ (funext fun a => Fin.ext ?_)
  match a with
  | ⟨0, _⟩ => show win0_1.index t (0 : Fin 2) * 512 + 1 * p.val = 512 * t.val + p.val; rw [(idx_rows t).2.2.1]; omega
  | ⟨1, _⟩ => show win0_1.index t (1 : Fin 2) * 512 + 1 * k.val = k.val; rw [(idx_rows t).2.2.2.1]; omega

theorem blk_c (c : Dev nD) (t : Fin cfg0.N) (p q : Fin 512) : iblk m c 2 t (ix2 p q) = m ((c : Thread nD τ).loc main_arg2) (ix2 (rowOf t p) q) := by
  unfold iblk
  rw [View.read_apply]
  show V m c main_arg2 (((cfg0.win 2).blk t).view.emb (ix2 p q)) = _
  rw [V_main_arg2]
  refine congrArg _ (funext fun a => Fin.ext ?_)
  match a with
  | ⟨0, _⟩ => show win0_2.index t (0 : Fin 2) * 512 + 1 * p.val = 512 * t.val + p.val; rw [(idx_rows t).2.2.2.2.1]; omega
  | ⟨1, _⟩ => show win0_2.index t (1 : Fin 2) * 512 + 1 * q.val = q.val; rw [(idx_rows t).2.2.2.2.2.1]; omega

theorem blk_wh (c : Dev nD) (t : Fin cfg0.N) (k : Fin 512) (n : Fin 2048) : iblk m c 3 t (ix2 k n) = Wst m c (ix2 n (lo k)) := by
  unfold iblk
  rw [View.read_apply]
  refine Eq.trans ?_ (wh_apply m c k n)
  show V m c main_v5 (((cfg0.win 3).blk t).view.emb (ix2 k n)) = V m c main_v5 (ix2 k n)
  refine congrArg _ (funext fun a => Fin.ext ?_)
  match a with
  | ⟨0, _⟩ => show win0_3.index t (0 : Fin 2) * 512 + 1 * k.val = k.val; rw [(idx_rows t).2.2.2.2.2.2.1]; omega
  | ⟨1, _⟩ => show win0_3.index t (1 : Fin 2) * 2048 + 1 * n.val = n.val; rw [(idx_rows t).2.2.2.2.2.2.2.1]; omega

theorem blk_wx (c : Dev nD) (t : Fin cfg0.N) (k : Fin 512) (n : Fin 2048) : iblk m c 4 t (ix2 k n) = Wst m c (ix2 n (hi k)) := by
  unfold iblk
  rw [View.read_apply]
  refine Eq.trans ?_ (wx_apply m c k n)
  show V m c main_v7 (((cfg0.win 4).blk t).view.emb (ix2 k n)) = V m c main_v7 (ix2 k n)
  refine congrArg _ (funext fun a => Fin.ext ?_)
  match a with
  | ⟨0, _⟩ => show win0_4.index t (0 : Fin 2) * 512 + 1 * k.val = k.val; rw [(idx_rows t).2.2.2.2.2.2.2.2.1]; omega
  | ⟨1, _⟩ => show win0_4.index t (1 : Fin 2) * 2048 + 1 * n.val = n.val; rw [(idx_rows t).2.2.2.2.2.2.2.2.2.1]; omega

theorem blk_b (c : Dev nD) (t : Fin cfg0.N) (n : Fin 2048) : iblk m c 5 t (ix2 (0 : Fin 1) n) = bst m c (ix1 n) := by
  unfold iblk
  rw [View.read_apply]
  refine Eq.trans ?_ (bias_row_apply m c n)
  show V m c main_v8 (((cfg0.win 5).blk t).view.emb (ix2 (0 : Fin 1) n)) = V m c main_v8 (ix2 (0 : Fin 1) n)
  refine congrArg _ (funext fun a => Fin.ext ?_)
  match a with
  | ⟨0, _⟩ => show win0_5.index t (0 : Fin 2) * 1 + 1 * 0 = 0; rw [(idx_rows t).2.2.2.2.2.2.2.2.2.2.1]
  | ⟨1, _⟩ => show win0_5.index t (1 : Fin 2) * 2048 + 1 * n.val = n.val; rw [(idx_rows t).2.2.2.2.2.2.2.2.2.2.2.1]; omega

/-! ## What a point writes back -/

theorem hz : (![0, 0] : Fin 2 → Nat) = fun _ => 0 := funext fun a => by fin_cases a <;> rfl

/-- The stored cell state of point t at (p, q) is `cellOut` at row 512·t+p. -/
theorem cell_point (c : Dev nD) (t : Fin cfg0.N) (p q : Fin 512) :
    k0_pay2 (iblk m c 0 t) (iblk m c 1 t) (iblk m c 3 t) (iblk m c 4 t) (iblk m c 5 t) (iblk m c 2 t) (ix2 p q) = cellOut (m ((c : Thread nD τ).loc main_arg0)) (m ((c : Thread nD τ).loc main_arg1)) (m ((c : Thread nD τ).loc main_arg2)) (Wst m c) (bst m c) (ix2 (rowOf t p) q) :=
  cell_block (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (Wst m c) (bst m c) (rowOf t)
    (blk_h m c t) (blk_x m c t) (blk_c m c t) (blk_wh m c t) (blk_wx m c t) (blk_b m c t) p q

/-- The stored hidden state of point t at (p, q) is `hidOut` at row 512·t+p. -/
theorem hid_point (c : Dev nD) (t : Fin cfg0.N) (p q : Fin 512) :
    k0_pay3 (iblk m c 0 t) (iblk m c 1 t) (iblk m c 3 t) (iblk m c 4 t) (iblk m c 5 t) (iblk m c 2 t) (ix2 p q) = hidOut (m ((c : Thread nD τ).loc main_arg0)) (m ((c : Thread nD τ).loc main_arg1)) (m ((c : Thread nD τ).loc main_arg2)) (Wst m c) (bst m c) (ix2 (rowOf t p) q) :=
  hid_block (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (Wst m c) (bst m c) (rowOf t)
    (blk_h m c t) (blk_x m c t) (blk_c m c t) (blk_wh m c t) (blk_wx m c t) (blk_b m c t) p q

/-- Point t writes back, to the hidden-state array, block t of `hidOut`. -/
theorem flushed_hid (c : Dev nD) (t : Fin cfg0.N) :
    (dats m 0 c).flushed 6 t = ((cfg0.win 6).blk t).view.read (Elt Ideal) (hidOut (m ((c : Thread nD τ).loc main_arg0)) (m ((c : Thread nD τ).loc main_arg1)) (m ((c : Thread nD τ).loc main_arg2)) (Wst m c) (bst m c)) := by
  show (cfg0.win 6).cut (grid0.coords t) ((dats m 0 c).after 6 t) = _
  rw [after6]
  unfold hidBuf
  rw [View.canon_unit_zero hz]
  simp only [View.ld_unit_zero (S := S512x512) hz, View.ld_unit_zero (S := S512x2048) hz, View.ld_unit_zero (S := S1x2048) hz]
  funext y
  obtain ⟨p, q, rfl⟩ : ∃ (p q : Fin 512), y = ix2 p q := ⟨y 0, y 1, eq_ix2 y⟩
  refine (hid_point m c t p q).trans ?_
  rw [View.read_apply]
  refine congrArg _ (funext fun a => Fin.ext ?_)
  match a with
  | ⟨0, _⟩ => show 512 * t.val + p.val = win0_6.index t (0 : Fin 2) * 512 + 1 * p.val; rw [(idx_rows t).2.2.2.2.2.2.2.2.2.2.2.2.1]; omega
  | ⟨1, _⟩ => show q.val = win0_6.index t (1 : Fin 2) * 512 + 1 * q.val; rw [(idx_rows t).2.2.2.2.2.2.2.2.2.2.2.2.2.1]; omega

/-- Point t writes back, to the cell-state array, block t of `cellOut`. -/
theorem flushed_cell (c : Dev nD) (t : Fin cfg0.N) :
    (dats m 0 c).flushed 7 t = ((cfg0.win 7).blk t).view.read (Elt Ideal) (cellOut (m ((c : Thread nD τ).loc main_arg0)) (m ((c : Thread nD τ).loc main_arg1)) (m ((c : Thread nD τ).loc main_arg2)) (Wst m c) (bst m c)) := by
  show (cfg0.win 7).cut (grid0.coords t) ((dats m 0 c).after 7 t) = _
  rw [after7]
  unfold cellBuf
  rw [View.canon_unit_zero hz]
  simp only [View.ld_unit_zero (S := S512x512) hz, View.ld_unit_zero (S := S512x2048) hz, View.ld_unit_zero (S := S1x2048) hz]
  funext y
  obtain ⟨p, q, rfl⟩ : ∃ (p q : Fin 512), y = ix2 p q := ⟨y 0, y 1, eq_ix2 y⟩
  refine (cell_point m c t p q).trans ?_
  rw [View.read_apply]
  refine congrArg _ (funext fun a => Fin.ext ?_)
  match a with
  | ⟨0, _⟩ => show 512 * t.val + p.val = win0_7.index t (0 : Fin 2) * 512 + 1 * p.val; rw [(idx_rows t).2.2.2.2.2.2.2.2.2.2.2.2.2.2.1]; omega
  | ⟨1, _⟩ => show q.val = win0_7.index t (1 : Fin 2) * 512 + 1 * q.val; rw [(idx_rows t).2.2.2.2.2.2.2.2.2.2.2.2.2.2.2]; omega

/-! ## The row tiles cover the arrays -/

theorem mem_tile6 (t : Fin cfg0.N) (i : S16384x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v9_0).slice (win0_6.rect t)).set ↔ _
  rw [View.set_slice_whole, Rect.mem_set_unit]
  exact Iff.rfl

theorem mem_tile7 (t : Fin cfg0.N) (i : S16384x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v9_1).slice (win0_7.rect t)).set ↔ _
  rw [View.set_slice_whole, Rect.mem_set_unit]
  exact Iff.rfl

/-- The tile holding row r: point r / 512. -/
def tileOf (i : S16384x512.Idx) : Fin cfg0.N := ⟨(i 0).val / 512, by
  rw [show cfg0.N = 32 from N_0]; have : (i 0).val < 16384 := (i 0).isLt; omega⟩

theorem cover6 (i : S16384x512.Idx) : ∃ t : Fin cfg0.N, (cfg0.win 6).flush t = true ∧ i ∈ ((cfg0.win 6).blk t).view.set := by
  refine ⟨tileOf i, flush0_6 _, ?_⟩
  rw [mem_tile6]
  have h0 : (i 0).val < 16384 := (i 0).isLt
  have h1 : (i 1).val < 512 := (i 1).isLt
  have e := idx_rows (tileOf i)
  have ev : (tileOf i).val = (i 0).val / 512 := rfl
  intro a
  match a with
  | ⟨0, _⟩ => show win0_6.index (tileOf i) (0 : Fin 2) * 512 ≤ (i 0).val ∧ (i 0).val < win0_6.index (tileOf i) (0 : Fin 2) * 512 + 512; rw [e.2.2.2.2.2.2.2.2.2.2.2.2.1, ev]; omega
  | ⟨1, _⟩ => show win0_6.index (tileOf i) (1 : Fin 2) * 512 ≤ (i 1).val ∧ (i 1).val < win0_6.index (tileOf i) (1 : Fin 2) * 512 + 512; rw [e.2.2.2.2.2.2.2.2.2.2.2.2.2.1]; omega

theorem cover7 (i : S16384x512.Idx) : ∃ t : Fin cfg0.N, (cfg0.win 7).flush t = true ∧ i ∈ ((cfg0.win 7).blk t).view.set := by
  refine ⟨tileOf i, flush0_7 _, ?_⟩
  rw [mem_tile7]
  have h0 : (i 0).val < 16384 := (i 0).isLt
  have h1 : (i 1).val < 512 := (i 1).isLt
  have e := idx_rows (tileOf i)
  have ev : (tileOf i).val = (i 0).val / 512 := rfl
  intro a
  match a with
  | ⟨0, _⟩ => show win0_7.index (tileOf i) (0 : Fin 2) * 512 ≤ (i 0).val ∧ (i 0).val < win0_7.index (tileOf i) (0 : Fin 2) * 512 + 512; rw [e.2.2.2.2.2.2.2.2.2.2.2.2.2.2.1, ev]; omega
  | ⟨1, _⟩ => show win0_7.index (tileOf i) (1 : Fin 2) * 512 ≤ (i 1).val ∧ (i 1).val < win0_7.index (tileOf i) (1 : Fin 2) * 512 + 512; rw [e.2.2.2.2.2.2.2.2.2.2.2.2.2.2.2]; omega

/-! ## The result arrays, and the run -/

theorem final_hid (c : Dev nD) : (dats m 0 c).arrAt 6 cfg0.N = hidOut (m ((c : Thread nD τ).loc main_arg0)) (m ((c : Thread nD τ).loc main_arg1)) (m ((c : Thread nD τ).loc main_arg2)) (Wst m c) (bst m c) :=
  (dats m 0 c).arrAt_eq_of_cover 6 (hidOut (m ((c : Thread nD τ).loc main_arg0)) (m ((c : Thread nD τ).loc main_arg1)) (m ((c : Thread nD τ).loc main_arg2)) (Wst m c) (bst m c)) (fun t _ => flushed_hid m c t) cover6

theorem final_cell (c : Dev nD) : (dats m 0 c).arrAt 7 cfg0.N = cellOut (m ((c : Thread nD τ).loc main_arg0)) (m ((c : Thread nD τ).loc main_arg1)) (m ((c : Thread nD τ).loc main_arg2)) (Wst m c) (bst m c) :=
  (dats m 0 c).arrAt_eq_of_cover 7 (cellOut (m ((c : Thread nD τ).loc main_arg0)) (m ((c : Thread nD τ).loc main_arg1)) (m ((c : Thread nD τ).loc main_arg2)) (Wst m c) (bst m c)) (fun t _ => flushed_cell m c t) cover7

/-- Every weakly fair execution of the idealized kernel terminates with the first result at `hidOut`, the second at
    `cellOut`, and the eleven arguments as launched. -/
theorem run : θ_run defs (onTc (τ := τ) (main (F := Ideal))) ⟨m, fun _ => 0, ρ⟩ fun r => ∀ c : Dev nD,
      r.2.mem ((c : Thread nD τ).loc main_v9_0) = hidOut (m ((c : Thread nD τ).loc main_arg0)) (m ((c : Thread nD τ).loc main_arg1)) (m ((c : Thread nD τ).loc main_arg2)) (Wst m c) (bst m c)
      ∧ r.2.mem ((c : Thread nD τ).loc main_v9_1) = cellOut (m ((c : Thread nD τ).loc main_arg0)) (m ((c : Thread nD τ).loc main_arg1)) (m ((c : Thread nD τ).loc main_arg2)) (Wst m c) (bst m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 6).trans (final_hid m c), ((h c).1 7).trans (final_cell m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.LstmValue

end
-- ==== Proof.RefGates.lean ====
/-
  The reference's two results read at an index. The reference joins each batch row's previous hidden state and input
  into one stacked row of 1024, stacks the four gates' weights and biases, and computes all 2048 gate columns with ONE
  contraction over the stacked row plus the bias; it slices the gate matrix into the four gates, applies the logistic
  function — spelled 1 / (1 + exp(−·)) with the literal 1.0 — to three of them and tanh to the fourth, and forms the new
  cell state and hidden state. Read at (r, q): the contraction over 1024 positions is the hidden half's plus the input
  half's (the stacked row's first 512 entries are the hidden state's, its last 512 the input's), so the gate matrix is
  `pre`, and the two results are `cellOut` and `hidOut` of the arguments, the stacked weights and the stacked biases.
-/
import proofs.«159062_j17102559772818_2_alg».proof.Defs
import proofs.«159062_j17102559772818_2_alg».proof.Proof.Gen.ReferenceIdeal.Read
import proofs.«159062_j17102559772818_2_alg».proof.Proof.LstmSpec
import Idealize.ShloMosaic.Lib.ValueIdx
import Idealize.ShloMosaic.Lib.Pipeline.Value
import Idealize.ShloMosaic.PureOps.Ideal.Laws

noncomputable section

namespace Cert.ReferenceIdeal.LstmRef

open Cert.ReferenceIdeal Cert.ReferenceIdeal.Gen Cert.ReferenceIdeal.Read Idealize.ShloMosaic Idealize.ShloMosaic.ValueIdx Cert.LstmCell

variable (x0 x1 x2 : (⟨S16384x512, .f32⟩ : BufTy).Contents (Elt Ideal)) (x3 : (⟨S512x1024, .f32⟩ : BufTy).Contents (Elt Ideal)) (x4 : (⟨S512, .f32⟩ : BufTy).Contents (Elt Ideal)) (x5 : (⟨S512x1024, .f32⟩ : BufTy).Contents (Elt Ideal)) (x6 : (⟨S512, .f32⟩ : BufTy).Contents (Elt Ideal)) (x7 : (⟨S512x1024, .f32⟩ : BufTy).Contents (Elt Ideal)) (x8 : (⟨S512, .f32⟩ : BufTy).Contents (Elt Ideal)) (x9 : (⟨S512x1024, .f32⟩ : BufTy).Contents (Elt Ideal)) (x10 : (⟨S512, .f32⟩ : BufTy).Contents (Elt Ideal))

/-- The stacked row's first 512 entries are the previous hidden state's row. -/
theorem stack_lo (r : Fin 16384) (k : Fin 512) : val_main_v0 (F := Ideal) x0 x1 (ix2 r (lo k)) = x1 (ix2 r k) := by
  unfold val_main_v0
  exact concatenate_pair_apply_left (1 : Fin 2) x1 x0 concatenates_S16384x512_S16384x512_S16384x1024_d1 (ix2 r (lo k)) rfl (ix2 r k)
    (fun b => by match b with | ⟨0, _⟩ => rfl | ⟨1, _⟩ => rfl)

/-- Its last 512 entries are the input's row. -/
theorem stack_hi (r : Fin 16384) (k : Fin 512) : val_main_v0 (F := Ideal) x0 x1 (ix2 r (hi k)) = x0 (ix2 r k) := by
  unfold val_main_v0
  exact concatenate_pair_apply_right (1 : Fin 2) x1 x0 concatenates_S16384x512_S16384x512_S16384x1024_d1 (ix2 r (hi k)) rfl rfl (ix2 r k)
    (fun b hb => by match b, hb with | ⟨0, _⟩, _ => rfl | ⟨1, _⟩, hb => exact absurd rfl hb)
    (by show k.val + 512 = 512 + k.val; omega)

/-- The transposed weight stack at (j, n) is the stack at (n, j). -/
theorem wT_apply (n : Fin 2048) (j : Fin 1024) :
    val_main_v3 (F := Ideal) x3 x5 x7 x9 (ix2 j n) = val_main_v1 (F := Ideal) x3 x5 x7 x9 (ix2 n j) := by
  rw [val_main_v3_apply]
  exact congrArg _ (funext fun a => by match a with | ⟨0, _⟩ => rfl | ⟨1, _⟩ => rfl)

/-- The gate matrix at (r, n): the affine map `pre` of the row's hidden state and input. -/
theorem gates_apply (r : Fin 16384) (n : Fin 2048) :
    val_main_v7 (F := Ideal) x0 x1 x3 x4 x5 x6 x7 x8 x9 x10 (ix2 r n)
      = pre x0 x1 (val_main_v1 (F := Ideal) x3 x5 x7 x9) (val_main_v2 (F := Ideal) x4 x6 x8 x10) r n := by
  rw [val_main_v7_apply, val_main_v4_apply, val_main_v6_apply, val_main_v5_apply, sum_stacked]
  have el : ∀ j : Fin 1024, lidx_main_v4 (ix2 r n) j = ix2 r j := fun j => funext fun a => by match a with | ⟨0, _⟩ => rfl | ⟨1, _⟩ => rfl
  have er : ∀ j : Fin 1024, ridx_main_v4 (ix2 r n) j = ix2 j n := fun j => funext fun a => by match a with | ⟨0, _⟩ => rfl | ⟨1, _⟩ => rfl
  have eb : idx_main_v5 (idx_main_v6 (ix2 r n)) = ix1 n := funext fun a => by match a with | ⟨0, _⟩ => rfl
  simp only [el, er, eb, stack_lo, stack_hi, wT_apply]
  rfl

/-- The logistic function as the reference spells it. -/
theorem sigma_ref (g : EReal) :
    FloatOps.hostDivf (F := Ideal) (φ := .f32) (FloatOps.ofBits .f32 0x3F800000#32)
        (FloatOps.addf (FloatOps.ofBits .f32 0x3F800000#32) (FloatOps.hostUnary .exp (FloatOps.hostNegf g))) = Ideal.logistic g :=
  logistic_spelled g

/-- The input gate at (r, q). -/
theorem gateI_apply (r : Fin 16384) (q : Fin 512) :
    val_main_v14 (F := Ideal) x0 x1 x3 x4 x5 x6 x7 x8 x9 x10 (ix2 r q)
      = Ideal.logistic (pre x0 x1 (val_main_v1 (F := Ideal) x3 x5 x7 x9) (val_main_v2 (F := Ideal) x4 x6 x8 x10) r (colI q)) := by
  rw [val_main_v14_apply, val_main_v13_apply, val_main_cst_0_apply, val_main_v12_apply, val_main_v11_apply, val_main_cst_apply,
    val_main_v10_apply, val_main_v9_apply, val_main_v8_apply,
    show idx_main_v8 (ix2 r q) = ix2 r (colI q) from funext fun a => by match a with | ⟨0, _⟩ => rfl | ⟨1, _⟩ => rfl,
    gates_apply]
  exact sigma_ref _

/-- The forget gate at (r, q). -/
theorem gateF_apply (r : Fin 16384) (q : Fin 512) :
    val_main_v21 (F := Ideal) x0 x1 x3 x4 x5 x6 x7 x8 x9 x10 (ix2 r q)
      = Ideal.logistic (pre x0 x1 (val_main_v1 (F := Ideal) x3 x5 x7 x9) (val_main_v2 (F := Ideal) x4 x6 x8 x10) r (colF q)) := by
  rw [val_main_v21_apply, val_main_v20_apply, val_main_cst_2_apply, val_main_v19_apply, val_main_v18_apply, val_main_cst_1_apply,
    val_main_v17_apply, val_main_v16_apply, val_main_v15_apply,
    show idx_main_v15 (ix2 r q) = ix2 r (colF q) from funext fun a => by match a with | ⟨0, _⟩ => rfl | ⟨1, _⟩ => rfl,
    gates_apply]
  exact sigma_ref _

/-- The output gate at (r, q). -/
theorem gateO_apply (r : Fin 16384) (q : Fin 512) :
    val_main_v28 (F := Ideal) x0 x1 x3 x4 x5 x6 x7 x8 x9 x10 (ix2 r q)
      = Ideal.logistic (pre x0 x1 (val_main_v1 (F := Ideal) x3 x5 x7 x9) (val_main_v2 (F := Ideal) x4 x6 x8 x10) r (colO q)) := by
  rw [val_main_v28_apply, val_main_v27_apply, val_main_cst_4_apply, val_main_v26_apply, val_main_v25_apply, val_main_cst_3_apply,
    val_main_v24_apply, val_main_v23_apply, val_main_v22_apply,
    show idx_main_v22 (ix2 r q) = ix2 r (colO q) from funext fun a => by match a with | ⟨0, _⟩ => rfl | ⟨1, _⟩ => rfl,
    gates_apply]
  exact sigma_ref _

/-- The candidate gate at (r, q). -/
theorem gateG_apply (r : Fin 16384) (q : Fin 512) :
    val_main_v30 (F := Ideal) x0 x1 x3 x4 x5 x6 x7 x8 x9 x10 (ix2 r q)
      = Ideal.tanh (pre x0 x1 (val_main_v1 (F := Ideal) x3 x5 x7 x9) (val_main_v2 (F := Ideal) x4 x6 x8 x10) r (colG q)) := by
  rw [val_main_v30_apply, val_main_v29_apply,
    show idx_main_v29 (ix2 r q) = ix2 r (colG q) from funext fun a => by match a with | ⟨0, _⟩ => rfl | ⟨1, _⟩ => rfl,
    gates_apply]
  rfl

/-- The reference's second result, the new cell state, is `cellOut`. -/
theorem cell_eq :
    val_main_v33 (F := Ideal) x0 x1 x2 x3 x4 x5 x6 x7 x8 x9 x10
      = cellOut x0 x1 x2 (val_main_v1 (F := Ideal) x3 x5 x7 x9) (val_main_v2 (F := Ideal) x4 x6 x8 x10) := by
  funext i
  obtain ⟨r, q, rfl⟩ : ∃ (r : Fin 16384) (q : Fin 512), i = ix2 r q := ⟨i 0, i 1, eq_ix2 i⟩
  rw [val_main_v33_apply, val_main_v31_apply, val_main_v32_apply, gateF_apply, gateI_apply, gateG_apply]
  rfl

/-- The reference's first result, the new hidden state, is `hidOut`. -/
theorem hid_eq :
    val_main_v35 (F := Ideal) x0 x1 x2 x3 x4 x5 x6 x7 x8 x9 x10
      = hidOut x0 x1 x2 (val_main_v1 (F := Ideal) x3 x5 x7 x9) (val_main_v2 (F := Ideal) x4 x6 x8 x10) := by
  funext i
  obtain ⟨r, q, rfl⟩ : ∃ (r : Fin 16384) (q : Fin 512), i = ix2 r q := ⟨i 0, i 1, eq_ix2 i⟩
  rw [val_main_v35_apply, val_main_v34_apply, gateO_apply, cell_eq]
  rfl

end Cert.ReferenceIdeal.LstmRef

end
-- ==== Proof.lean ====
/-
  The LSTM cell kernel against its reference, on the extended reals.

  The kernel tiles the batch into 32 tiles of 512 rows; at each tile it multiplies the tile of the previous hidden
  state by the hidden half of the stacked, transposed gate weights and the tile of the input by the input half, adds the
  two products and the stacked bias, and forms the new cell and hidden states from the four 512-column groups of that
  gate matrix. The reference joins hidden state and input into one row of length 1024 and contracts it with the whole
  stacked weight matrix at once. The two agree because a sum over the 1024 stacked positions is the sum over its first
  512 plus the sum over its last 512; the logistic function, which the reference spells 1 / (1 + exp(−·)), and tanh are
  the same functions on both sides, and narrowing a matmul operand to half precision is the identity on the extended
  reals. No finiteness of the inputs is used.

  The frames: both printings of the kernel run to the end leaving the eleven arguments as launched (the host lines
  before the region only build new arrays; the region's input windows are never written back), and so does the
  reference, whose run is a straight line of host operations. The kernel's idealization rewrote nothing.
-/
import proofs.«159062_j17102559772818_2_alg».proof.Defs
import proofs.«159062_j17102559772818_2_alg».proof.Proof.Gen.Kernel
import proofs.«159062_j17102559772818_2_alg».proof.Proof.Gen.KernelIdeal
import proofs.«159062_j17102559772818_2_alg».proof.Proof.Gen.ReferenceIdeal
import proofs.«159062_j17102559772818_2_alg».proof.Proof.Gen.Pre_finite_inputs
import proofs.«159062_j17102559772818_2_alg».proof.Proof.Gen.ReferenceIdeal.Run
import proofs.«159062_j17102559772818_2_alg».proof.Proof.LstmRun
import proofs.«159062_j17102559772818_2_alg».proof.Proof.LstmValue
import proofs.«159062_j17102559772818_2_alg».proof.Proof.RefGates
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Lstm.frame m ρ

theorem frame_ki : Cert.frame_KernelIdeal := fun m ρ _ => Cert.KernelIdeal.Lstm.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs end with the new hidden state at `hidOut` and the new cell state at `cellOut` of the
    arguments, the stacked weights and the stacked biases: the kernel by its run read tile by tile, the reference by its
    run read operation by operation; the stacks are the same concatenations of the same arguments. -/
theorem algebraic : Cert.algebraic_KernelIdeal_ReferenceIdeal := by
  intro m ρ m' ρ' _ hagree
  refine ⟨_, _, Cert.KernelIdeal.LstmValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    rw [Cert.ReferenceIdeal.Read.val_main_v35_eq, Cert.ReferenceIdeal.LstmRef.hid_eq, e0, e1, e2, e3, e4, e5, e6, e7, e8, e9, e10]
    rfl
  · obtain ⟨e0, e1, e2, e3, e4, e5, e6, e7, e8, e9, e10⟩ := hagree c
    rw [Cert.ReferenceIdeal.Read.val_main_v33_eq, Cert.ReferenceIdeal.LstmRef.cell_eq, e0, e1, e2, e3, e4, e5, e6, e7, e8, e9, e10]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
